-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x1 : Shape := ⟨2, ![256, 1]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S4x2048x4096 .f32) (main_arg1 : FVec F S256x1 .f32) (main_arg2 : IVec S4096x4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  main_v8
-- ==== Kernel.lean ====
abbrev S4x2048x4096 : Shape := ⟨3, ![4, 2048, 4096]⟩
abbrev S256x1 : Shape := ⟨2, ![256, 1]⟩
abbrev S4096x4096 : Shape := ⟨2, ![4096, 4096]⟩
abbrev S256 : Shape := ⟨1, ![256]⟩
abbrev S_ : Shape := ⟨0, ![]⟩
abbrev S4096x4096x1 : Shape := ⟨3, ![4096, 4096, 1]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 17
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S256x1, .f32⟩
  | .hbm, ⟨2, _⟩ => ⟨S4096x4096, .i32⟩
  | .hbm, ⟨3, _⟩ => ⟨S256, .f32⟩
  | .hbm, ⟨4, _⟩ => ⟨S256, .bf16⟩
  | .hbm, ⟨5, _⟩ => ⟨S_, .i32⟩
  | .hbm, ⟨6, _⟩ => ⟨S4096x4096, .i32⟩
  | .hbm, ⟨7, _⟩ => ⟨S4096x4096, .i1⟩
  | .hbm, ⟨8, _⟩ => ⟨S_, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096x1, .i32⟩
  | .hbm, ⟨13, _⟩ => ⟨S4096x4096, .bf16⟩
  | .hbm, ⟨14, _⟩ => ⟨S8192x4096, .f32⟩
  | .hbm, ⟨15, _⟩ => ⟨S8192x4096, .f32⟩
  | .hbm, ⟨16, _⟩ => ⟨S4x2048x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S256x1_S256 : S256x1.ShapeCasts S256
  bitsLt_bf16_f32 : FTy.bits .bf16 < FTy.bits .f32
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8192x4096_S4x2048x4096 : S8192x4096.ShapeCasts S4x2048x4096
  gather_S256_S4096x4096x1_S4096x4096_n_0_n_n_0_2_1_wf : GatherDims.WF S256 S4096x4096x1 S4096x4096 [] [0] [] [0] [] 2 ![1]
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .f32 = 32 ∨ (Rect.block (s := S8192x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v9) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256x1 : Shape := ⟨2, ![256, 1]⟩
abbrev S4096x4096 : Shape := ⟨2, ![4096, 4096]⟩
abbrev S256 : Shape := ⟨1, ![256]⟩
abbrev S_ : Shape := ⟨0, ![]⟩
abbrev S4096x4096x1 : Shape := ⟨3, ![4096, 4096, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x1, .f32⟩
  | .hbm, ⟨2, _⟩ => ⟨S4096x4096, .i32⟩
  | .hbm, ⟨3, _⟩ => ⟨S256, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  shapeCasts_S256x1_S256 : S256x1.ShapeCasts S256
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  gather_S256_S4096x4096x1_S4096x4096_n_0_n_n_0_2_1_wf : GatherDims.WF S256 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.AccPieces.lean ====
/-
  What one grid point's body leaves in the accumulator and in the output block, as values.

  The body at a point with k = 0 zeroes the accumulator, reads it back, and stores accumulator + (x-block · w-blockᵀ);
  at a point with k = 1 it stores the same update of the accumulator the point before left, and copies the
  accumulator to the output block. Both updates are one pure term, the body's arithmetic `k0_pay2`, applied to the
  point's two input blocks and to the accumulator's contents before the update.
-/
import proofs.«169763_j24163486007516_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem zero_offsets : (![0, 0] : Fin 2 → Nat) = fun _ => 0 := funext fun a => by fin_cases a <;> rfl

/-- At a point with k = 0 the accumulator ends at the update of the zero block. -/
theorem acc_first (c : Dev nD) (i : grid0.Coords) (a3 : Memref sig .tc .vmem S1024x2048 .f32) (h3 : a3.IsWhole)
    (a4 : Memref sig .tc .vmem S1024x2048 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec F S1024x2048 .f32) (x1 : Vec F S1024x2048 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) zero_offsets, View.readCov_unit_zero (S := S1024x1024) _ zero_offsets]
  simp only [View.readAt_eq_ld, h3.read_unread, h4.read_unread, View.ld_unit_zero (S := S1024x2048) zero_offsets]

/-- At a point with k = 1 the accumulator ends at the update of what the point before left in it, -/
theorem acc_second (c : Dev nD) (i : grid0.Coords) (a3 : Memref sig .tc .vmem S1024x2048 .f32) (h3 : a3.IsWhole)
    (a4 : Memref sig .tc .vmem S1024x2048 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x2048 .f32) (x1 : Vec F S1024x2048 .bf16) (acc : Vec F S1024x1024 .f32) :
    sout0_B_0 c i a3 h3 a4 h4 a5 h5 a6 h6 hc0 hc1 x0 x1 acc = k0_pay2 x0 x1 acc := by
  unfold sout0_B_0
  rw [View.read_writes_eq_canon _ _ _ (scover0_B_0 c i a3 h3 a4 h4 a5 h5 a6 h6 hc0 hc1 x0 x1 acc)]
  unfold kernelRun0_B
  dsimp only
  sl_unfold_words
  rw [View.canon_unit_zero (S := S1024x1024) zero_offsets]
  simp only [View.readAt_eq_ld, h3.read_unread, h4.read_unread, h6.read_unread, View.ld_unit_zero (S := S1024x2048) zero_offsets,
    View.ld_unit_zero (S := S1024x1024) zero_offsets]

/-- and the output block is a copy of it. -/
theorem out_second (c : Dev nD) (i : grid0.Coords) (a3 : Memref sig .tc .vmem S1024x2048 .f32) (h3 : a3.IsWhole)
    (a4 : Memref sig .tc .vmem S1024x2048 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x2048 .f32) (x1 : Vec F S1024x2048 .bf16) (acc : Vec F S1024x1024 .f32) :
    out0_B_2 c i a3 h3 a4 h4 a5 h5 a6 h6 hc0 hc1 x0 x1 acc = k0_pay2 x0 x1 acc := by
  unfold out0_B_2
  rw [View.read_writes_eq_canon _ _ _ (cover0_B_2 c i a3 h3 a4 h4 a5 h5 a6 h6 hc0 hc1 x0 x1 acc)]
  unfold kernelRun0_B
  dsimp only
  sl_unfold_words
  rw [View.canon_unit_zero (S := S1024x1024) zero_offsets, View.readCov_unit_zero (S := S1024x1024) _ zero_offsets]
  simp only [View.readAt_eq_ld, h3.read_unread, h4.read_unread, h6.read_unread, View.ld_unit_zero (S := S1024x2048) zero_offsets,
    View.ld_unit_zero (S := S1024x1024) zero_offsets]

variable (m : (ℓ : Loc nD τ sig) → Buf (Elt F) ℓ)

/-- The x-block and the w-block a point's body multiplies, typed as the body's loads. -/
abbrev xblk (c : Dev nD) (t : Fin cfg0.N) : Vec F S1024x2048 .f32 := iblk m c 0 t
abbrev wblk (c : Dev nD) (t : Fin cfg0.N) : Vec F S1024x2048 .bf16 := iblk m c 1 t

/-- The accumulator after a point with k = 0: one update of the zero block with the point's blocks. -/
theorem acc_after_first (c : Dev nD) (t : Fin cfg0.N) (h0 : t.val % 2 = 0) :
    (outsAt0 m c t.val t.isLt).2 = k0_pay2 (xblk m c t) (wblk m c t) (k0_pay1 (F := F)) := by
  have h1 : ¬t.val % 2 = 1 := by omega
  rw [outsAt0_A m c t h0 h1]
  dsimp only
  exact acc_first c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- The output block after a point with k = 1: the update, with the point's blocks, of what the point before left in
    the accumulator. -/
theorem out_after_second (c : Dev nD) (t : Fin cfg0.N) (h1 : t.val % 2 = 1) :
    (outsAt0 m c t.val t.isLt).1
      = k0_pay2 (xblk m c t) (wblk m c t) (outsAt0 m c (t.val - 1) (Nat.lt_of_le_of_lt (Nat.sub_le _ _) t.isLt)).2 := by
  have h0 : ¬t.val % 2 = 0 := by omega
  rw [outsAt0_B m c t h0 h1]
  dsimp only
  exact out_second c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- So after a point with k = 1 the output block is two updates of the zero block: with the blocks of the point
    before (the same output block at k = 0), then with this point's. The recursion over the grid is one step deep,
    because every k = 0 point starts again from the zero block. -/
theorem out_after_pair (c : Dev nD) (t : Fin cfg0.N) (h1 : t.val % 2 = 1) (hp : t.val - 1 < cfg0.N) :
    (outsAt0 m c t.val t.isLt).1
      = k0_pay2 (xblk m c t) (wblk m c t) (k0_pay2 (xblk m c ⟨t.val - 1, hp⟩) (wblk m c ⟨t.val - 1, hp⟩) (k0_pay1 (F := F))) :=
  (out_after_second m c t h1).trans
    (congrArg (k0_pay2 (xblk m c t) (wblk m c t)) (acc_after_first m c ⟨t.val - 1, hp⟩ (by show (t.val - 1) % 2 = 0; omega)))

end Cert.KernelIdeal.Acc

end
-- ==== Proof.PayloadAt.lean ====
/-
  The body's arithmetic read at one index, on the extended reals.

  The block the accumulator is reset to is zero at every index. One update of an accumulator block `acc` with an
  x-block `x` [1024, 2048] and a w-block `w` [1024, 2048] holds, at row p and column q,

      acc(p, q) + ∑ k < 2048, x(p, k) · w(q, k):

  the rounding of the x-block to bf16 is the identity on the extended reals, the product contracts the second axis
  of both blocks into a zero accumulator, and the sum over the one-axis contraction shape is a sum over k < 2048.
-/
import proofs.«169763_j24163486007516_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Pay

open Cert.KernelIdeal Cert.KernelIdeal.Gen

/-- The dimension numbers of the body's product: both operands contracted along their second axis. -/
abbrev mk_nk : DotDims S1024x2048 S1024x2048 S1024x1024 := dot_S1024x2048_S1024x2048_S1024x1024_1_1_0_0_n_n

/-- The reset block is zero. -/
theorem zero_block_apply (j : S1024x1024.Idx) : k0_pay1 (F := Ideal) j = 0 := by
  unfold k0_pay1
  simp only [shapeCast_self]
  exact Ideal.ofBits_zero_f32

/-- At output (p, q) and contraction index κ the left operand is read at row p … -/
theorem lhs_row (j : S1024x1024.Idx) (κ : mk_nk.contr.Idx) : (mk_nk.lhsIdx j κ 0).val = (j 0).val := by
  unfold DotDims.lhsIdx
  rw [dif_neg (show ¬(0 : Fin S1024x2048.rank) ∈ mk_nk.lhsBatch by decide),
    dif_pos (show (0 : Fin S1024x2048.rank) ∈ mk_nk.lhsNonContracting by decide)]
  rfl
/-- … and column κ; -/
theorem lhs_col (j : S1024x1024.Idx) (κ : mk_nk.contr.Idx) : (mk_nk.lhsIdx j κ 1).val = (κ ⟨0, by decide⟩).val :=
  mk_nk.lhsIdx_val_of_single rfl j κ
/-- the right operand at row q … -/
theorem rhs_row (j : S1024x1024.Idx) (κ : mk_nk.contr.Idx) : (mk_nk.rhsIdx j κ 0).val = (j 1).val := by
  unfold DotDims.rhsIdx
  rw [dif_neg (show ¬(0 : Fin S1024x2048.rank) ∈ mk_nk.rhsBatch by decide),
    dif_pos (show (0 : Fin S1024x2048.rank) ∈ mk_nk.rhsNonContracting by decide)]
  rfl
/-- … and column κ. -/
theorem rhs_col (j : S1024x1024.Idx) (κ : mk_nk.contr.Idx) : (mk_nk.rhsIdx j κ 1).val = (κ ⟨0, by decide⟩).val :=
  mk_nk.rhsIdx_val_of_single rfl j κ

/-- One update at (p, q): the accumulator's entry plus the inner product of row p of the x-block and row q of the
    w-block. -/
theorem update_apply (x : Vec Ideal S1024x2048 .f32) (w : Vec Ideal S1024x2048 .bf16) (acc : Vec Ideal S1024x1024 .f32)
    (p q : Fin 1024) :
    k0_pay2 x w acc (ix2 p q) = acc (ix2 p q) + ∑ k : Fin 2048, x (ix2 p k) * w (ix2 q k) := by
  unfold k0_pay2
  simp only [shapeCast_self]
  refine (addf_apply acc _ (ix2 p q)).trans ?_
  refine congrArg (acc (ix2 p q) + ·) ?_
  refine (Ideal.matmul_constant_zero_apply (φ₁ := .bf16) (φ₂ := .bf16) mk_nk none (truncf .bf16 x bitsLt_bf16_f32) w (ix2 p q)).trans ?_
  rw [← Equiv.sum_comp (contrEquiv1 mk_nk 2048 rfl rfl).symm]
  refine Finset.sum_congr rfl fun k _ => ?_
  have hk := contrEquiv1_symm_val mk_nk 2048 rfl rfl k
  have el : mk_nk.lhsIdx (ix2 p q) ((contrEquiv1 mk_nk 2048 rfl rfl).symm k) = ix2 p k := funext fun a => Fin.ext (by
    match a with
    | ⟨0, _⟩ => exact lhs_row _ _
    | ⟨1, _⟩ => exact (lhs_col _ _).trans hk)
  have er : mk_nk.rhsIdx (ix2 p q) ((contrEquiv1 mk_nk 2048 rfl rfl).symm k) = ix2 q k := funext fun a => Fin.ext (by
    match a with
    | ⟨0, _⟩ => exact rhs_row _ _
    | ⟨1, _⟩ => exact (rhs_col _ _).trans hk)
  rw [el, er]
  rfl

end Cert.KernelIdeal.Pay

end
-- ==== Proof.Blocks.lean ====
/-
  Where the grid's blocks sit in the arrays the region finds.

  Grid point t of the [8, 4, 2] grid, in row-major order, is (i, j, k) with i = t / 8, j = t / 2 % 4, k = t % 2. At it
  the x-window holds rows 1024·i … of the reshaped input, columns 2048·k …; the w-window holds rows 1024·j … of the
  gathered weights, columns 2048·k …; the output window is block (i, j) of the [8192, 4096] result.

  The two arrays themselves come from the host operations before the region: the input reshaped to [8192, 4096], and
  the weight matrix gathered from the centroid table (rounded to bf16, the identity on the extended reals) by the
  index array with its negative entries wrapped.
-/
import proofs.«169763_j24163486007516_2_alg».proof.Proof.Gen.KernelIdeal.Frame.Runs
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The windows' block indices at every grid point, decided over the 64 points. -/
theorem index_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = t.val / 8 ∧ win0_2.index t (1 : Fin 2) = t.val / 2 % 4 :=
  (by decide +kernel : ∀ t : Fin grid0.N, _)

/-- Entry (p, k) of the x-block at point t is entry (1024·(t/8) + p, 2048·(t%2) + k) of the reshaped input. -/
theorem xblock_apply (c : Dev nD) (t : Fin cfg0.N) (p : Fin 1024) (k : Fin 2048) (r : Fin 8192) (κ : Fin 4096)
    (hr : r.val = 1024 * (t.val / 8) + p.val) (hκ : κ.val = 2048 * (t.val % 2) + k.val) :
    (iblk m c 0 t : Vec F S1024x2048 .f32) (ix2 p k) = V m c main_v9 (ix2 r κ) := by
  obtain ⟨e0, e1, -⟩ := index_facts t
  unfold iblk
  rw [View.read_apply]
  show V m c main_v9 _ = V m c main_v9 _
  refine congrArg (V m c main_v9) ?_
  funext a
  apply Fin.ext
  match a with
  | ⟨0, _⟩ => show win0_0.index t (0 : Fin 2) * 1024 + 1 * p.val = r.val; omega
  | ⟨1, _⟩ => show win0_0.index t (1 : Fin 2) * 2048 + 1 * k.val = κ.val; omega

/-- Entry (q, k) of the w-block at point t is entry (1024·(t/2%4) + q, 2048·(t%2) + k) of the gathered weights. -/
theorem wblock_apply (c : Dev nD) (t : Fin cfg0.N) (q : Fin 1024) (k : Fin 2048) (n : Fin 4096) (κ : Fin 4096)
    (hn : n.val = 1024 * (t.val / 2 % 4) + q.val) (hκ : κ.val = 2048 * (t.val % 2) + k.val) :
    (iblk m c 1 t : Vec F S1024x2048 .bf16) (ix2 q k) = V m c main_v8 (ix2 n κ) := by
  obtain ⟨-, -, e2, e3, -⟩ := index_facts t
  unfold iblk
  rw [View.read_apply]
  show V m c main_v8 _ = V m c main_v8 _
  refine congrArg (V m c main_v8) ?_
  funext a
  apply Fin.ext
  match a with
  | ⟨0, _⟩ => show win0_1.index t (0 : Fin 2) * 1024 + 1 * q.val = n.val; omega
  | ⟨1, _⟩ => show win0_1.index t (1 : Fin 2) * 2048 + 1 * k.val = κ.val; omega

/-- The weight matrix as the host operations before the region compute it from the centroid table and the index
    array: the table's one column, rounded to bf16, gathered at the indices, a negative index first raised by 256. -/
def weights (tbl : S256x1.Idx → F .f32) (idx : IVec S4096x4096 32) : S4096x4096.Idx → F .bf16 :=
  Host.gather gather_S256_S4096x4096x1_S4096x4096_n_0_n_n_0_2_1
    (truncf .bf16 (shapeCast S256 tbl shapeCasts_S256x1_S256) bitsLt_bf16_f32)
    (broadcastInDim S4096x4096x1 ![0, 1] bcast_S4096x4096_S4096x4096x1_0_1
      (select (cmpi .slt idx (broadcastInDim S4096x4096 ![] bcast_S_S4096x4096 (constantI S_ 32 0#32)))
        (addi idx (broadcastInDim S4096x4096 ![] bcast_S_S4096x4096 (constantI S_ 32 256#32))) idx))

/-- The region finds the input reshaped to [8192, 4096] … -/
theorem x_array (c : Dev nD) :
    (V m c main_v9 : S8192x4096.Idx → F .f32)
      = shapeCast S8192x4096 (m ((c : Thread nD τ).loc main_arg0)) shapeCasts_S4x2048x4096_S8192x4096 := by
  show StableHlo.after hostOps0 (fun b => m (c, b)) (Proc.devRef .tc main_v9) = _
  after_results
  rfl

/-- … and the gathered weight matrix. -/
theorem w_array (c : Dev nD) :
    (V m c main_v8 : S4096x4096.Idx → F .bf16)
      = weights (m ((c : Thread nD τ).loc main_arg1)) (m ((c : Thread nD τ).loc main_arg2)) := by
  show StableHlo.after hostOps0 (fun b => m (c, b)) (Proc.devRef .tc main_v8) = _
  after_results
  rfl

end Cert.KernelIdeal.Blocks

end
-- ==== Proof.Product.lean ====
/-
  The result as one function of the two matrices, and the law that joins a product accumulated in two halves of the
  contracted axis to the product taken at once.

  For X [8192, 4096] and W [4096, 4096] over the extended reals, the result at (r, n) is ∑ k < 4096, X(r, k) · W(n, k),
  the product X · Wᵀ. The kernel reaches it as (0 + ∑ k < 2048, X(r, k) · W(n, k)) + ∑ k < 2048, X(r, 2048 + k) · W(n, 2048 + k).
  The two agree because addition on the extended reals is associative and commutative with neutral element 0: a sum
  over 4096 = 2048 + 2048 positions is the sum over the first 2048 plus the sum over the last 2048. No finiteness of
  the entries is used.
-/
import Mathlib.Algebra.BigOperators.Fin
import Mathlib.Data.EReal.Basic
import Idealize.ShloMosaic.Lib.ValueIdx
import Idealize.ShloMosaic.Lib.Pipeline.Value

noncomputable section

open Idealize.ShloMosaic Idealize.ShloMosaic.ValueIdx

namespace Cert.MatProduct

/-- X · Wᵀ, entry by entry. -/
def product (X : (⟨2, ![8192, 4096]⟩ : Shape).Idx → EReal) (W : (⟨2, ![4096, 4096]⟩ : Shape).Idx → EReal) :
    (⟨2, ![8192, 4096]⟩ : Shape).Idx → EReal :=
  fun j => ∑ k : Fin 4096, X (ix2 ⟨(j 0).val, idx2_lt0 j⟩ k) * W (ix2 ⟨(j 1).val, idx2_lt1 j⟩ k)

/-- The entry at an index whose coordinates are r and n. -/
theorem product_apply (X : (⟨2, ![8192, 4096]⟩ : Shape).Idx → EReal) (W : (⟨2, ![4096, 4096]⟩ : Shape).Idx → EReal)
    (j : (⟨2, ![8192, 4096]⟩ : Shape).Idx) (r : Fin 8192) (n : Fin 4096) (hr : (j 0).val = r.val) (hn : (j 1).val = n.val) :
    product X W j = ∑ k : Fin 4096, X (ix2 r k) * W (ix2 n k) := by
  obtain rfl : (⟨(j 0).val, idx2_lt0 j⟩ : Fin 8192) = r := Fin.ext hr
  obtain rfl : (⟨(j 1).val, idx2_lt1 j⟩ : Fin 4096) = n := Fin.ext hn
  rfl

/-- Position k < 2048 of the first half, and of the second half, of the contracted axis. -/
abbrev lo (k : Fin 2048) : Fin 4096 := ⟨k.val, by have := k.isLt; omega⟩
abbrev hi (k : Fin 2048) : Fin 4096 := ⟨2048 + k.val, by have := k.isLt; omega⟩

/-- A sum over the 4096 positions is the sum over the first half plus the sum over the second half, in any
    additive commutative monoid. -/
theorem sum_two_halves {M : Type*} [AddCommMonoid M] (f : Fin 4096 → M) :
    ∑ k : Fin 4096, f k = (∑ k : Fin 2048, f (lo k)) + ∑ k : Fin 2048, f (hi k) :=
  Fin.sum_univ_add (a := 2048) (b := 2048) f

/-- The product accumulated over the two halves, from zero, is the product. -/
theorem two_halves_eq (X : (⟨2, ![8192, 4096]⟩ : Shape).Idx → EReal) (W : (⟨2, ![4096, 4096]⟩ : Shape).Idx → EReal)
    (r : Fin 8192) (n : Fin 4096) :
    (0 + ∑ k : Fin 2048, X (ix2 r (lo k)) * W (ix2 n (lo k))) + ∑ k : Fin 2048, X (ix2 r (hi k)) * W (ix2 n (hi k))
      = ∑ k : Fin 4096, X (ix2 r k) * W (ix2 n k) := by
  rw [zero_add, sum_two_halves fun k => X (ix2 r k) * W (ix2 n k)]

/-- The linear layer on the unflattened input: entry (b, s, o) is ∑ i < 4096, A(b, s, i) · W(o, i). -/
def linear (A : (⟨3, ![4, 2048, 4096]⟩ : Shape).Idx → EReal) (W : (⟨2, ![4096, 4096]⟩ : Shape).Idx → EReal) :
    (⟨3, ![4, 2048, 4096]⟩ : Shape).Idx → EReal :=
  fun i => ∑ k : Fin 4096, A (ix3 ⟨(i 0).val, (i 0).isLt⟩ ⟨(i 1).val, (i 1).isLt⟩ k) * W (ix2 ⟨(i 2).val, (i 2).isLt⟩ k)

/-- Flattening the two leading axes of the input, taking the product, and unflattening the rows of the result is
    the linear layer: row b · 2048 + s of the flattened input is row (b, s) of the input, and entry (b, s, o) of the
    unflattened result is entry (b · 2048 + s, o) of the product — the same row-major positions. -/
theorem unflatten_product (A : (⟨3, ![4, 2048, 4096]⟩ : Shape).Idx → EReal) (W : (⟨2, ![4096, 4096]⟩ : Shape).Idx → EReal)
    (hin : (⟨3, ![4, 2048, 4096]⟩ : Shape).ShapeCasts ⟨2, ![8192, 4096]⟩)
    (hout : (⟨2, ![8192, 4096]⟩ : Shape).ShapeCasts ⟨3, ![4, 2048, 4096]⟩) :
    shapeCast ⟨3, ![4, 2048, 4096]⟩ (product (shapeCast ⟨2, ![8192, 4096]⟩ A hin) W) hout = linear A W := by
  funext i
  obtain ⟨b, s, o, rfl⟩ : ∃ (b : Fin 4) (s : Fin 2048) (o : Fin 4096), i = ix3 b s o := ⟨i 0, i 1, i 2, eq_ix3 i⟩
  have hb := b.isLt
  have hs := s.isLt
  obtain ⟨r, hr⟩ : ∃ r : Fin 8192, r.val = b.val * 2048 + s.val := ⟨⟨b.val * 2048 + s.val, by omega⟩, rfl⟩
  refine (shapeCast_apply _ hout (ix3 b s o) (ix2 r o) ?_).trans ?_
  · rw [Shape.rowMajor_val_two, Shape.rowMajor_val_three]
    show r.val * 4096 + o.val = (b.val * 2048 + s.val) * 4096 + o.val
    rw [hr]
  refine (product_apply _ W (ix2 r o) r o rfl rfl).trans ?_
  refine Finset.sum_congr rfl fun k _ => ?_
  refine congrArg (· * W (ix2 o k)) ?_
  refine shapeCast_apply A hin (ix2 r k) (ix3 b s k) ?_
  rw [Shape.rowMajor_val_two, Shape.rowMajor_val_three]
  show (b.val * 2048 + s.val) * 4096 + k.val = r.val * 4096 + k.val
  rw [hr]

end Cert.MatProduct

end
-- ==== Proof.KernelValue.lean ====
/-
  What the kernel's program leaves in its result, on the extended reals.

  Write X for the input reshaped to [8192, 4096] and W for the gathered [4096, 4096] weight matrix, as the region finds
  them. Output block (i, j) is written back once, after the grid point (i, j, 1); by then it holds two updates of the
  zero block, with the blocks of the points (i, j, 0) and (i, j, 1), so that its entry (p, q) is

      (0 + ∑ k < 2048, X(1024 i + p, k) · W(1024 j + q, k)) + ∑ k < 2048, X(1024 i + p, 2048 + k) · W(1024 j + q, 2048 + k),

  which is entry (1024 i + p, 1024 j + q) of X · Wᵀ. The 32 written blocks tile the [8192, 4096] array, so the array
  ends holding X · Wᵀ; the reshape after the region unflattens its rows, and the result is the linear layer applied
  to the input.
-/
import proofs.«169763_j24163486007516_2_alg».proof.Proof.Gen.KernelIdeal.Frame
import proofs.«169763_j24163486007516_2_alg».proof.Proof.AccPieces
import proofs.«169763_j24163486007516_2_alg».proof.Proof.PayloadAt
import proofs.«169763_j24163486007516_2_alg».proof.Proof.Blocks
import proofs.«169763_j24163486007516_2_alg».proof.Proof.Product
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.MatProduct

variable (m : (ℓ : Loc nD τ sig) → Buf (Elt Ideal) ℓ) (ρ : Dev nD → PrngReg)

/-- The two matrices as the region finds them. -/
abbrev X (c : Dev nD) : S8192x4096.Idx → EReal := V m c main_v9
abbrev W (c : Dev nD) : S4096x4096.Idx → EReal := V m c main_v8

/-- One point's inner product of row p of its x-block with row q of its w-block is the sum, over the point's half of
    the contracted axis, of the products of row r of X with row n of W. -/
theorem half_sum (c : Dev nD) (t : Fin cfg0.N) (p q : Fin 1024) (r : Fin 8192) (n : Fin 4096) (half : Fin 2048 → Fin 4096)
    (hr : r.val = 1024 * (t.val / 8) + p.val) (hn : n.val = 1024 * (t.val / 2 % 4) + q.val)
    (hh : ∀ k, (half k).val = 2048 * (t.val % 2) + k.val) :
    (∑ k : Fin 2048, (Acc.xblk m c t (ix2 p k) : EReal) * (Acc.wblk m c t (ix2 q k) : EReal))
      = ∑ k : Fin 2048, X m c (ix2 r (half k)) * W m c (ix2 n (half k)) :=
  Finset.sum_congr rfl fun k _ =>
    congrArg₂ (· * ·) (Blocks.xblock_apply m c t p k r (half k) hr (hh k)) (Blocks.wblock_apply m c t q k n (half k) hn (hh k))

/-- Entry (p, q) of the output block written back after point t = (i, j, 1) is the entry of X · Wᵀ under it. -/
theorem block_entry (c : Dev nD) (t : Fin cfg0.N) (h1 : t.val % 2 = 1) (hp : t.val - 1 < cfg0.N) (p q : Fin 1024)
    (j : S8192x4096.Idx) (hj0 : (j 0).val = 1024 * (t.val / 8) + p.val) (hj1 : (j 1).val = 1024 * (t.val / 2 % 4) + q.val) :
    k0_pay2 (Acc.xblk m c t) (Acc.wblk m c t)
        (k0_pay2 (Acc.xblk m c ⟨t.val - 1, hp⟩) (Acc.wblk m c ⟨t.val - 1, hp⟩) (k0_pay1 (F := Ideal))) (ix2 p q)
      = product (X m c) (W m c) j := by
  have hN : t.val < 64 := lt_of_lt_of_eq t.isLt N_0
  have hpl := p.isLt
  have hql := q.isLt
  obtain ⟨r, hr⟩ : ∃ r : Fin 8192, r.val = 1024 * (t.val / 8) + p.val := ⟨⟨1024 * (t.val / 8) + p.val, by omega⟩, rfl⟩
  obtain ⟨n, hn⟩ : ∃ n : Fin 4096, n.val = 1024 * (t.val / 2 % 4) + q.val := ⟨⟨1024 * (t.val / 2 % 4) + q.val, by omega⟩, rfl⟩
  refine (Pay.update_apply (Acc.xblk m c t) (Acc.wblk m c t) _ p q).trans ?_
  refine (congrArg (· + _) ((Pay.update_apply (Acc.xblk m c ⟨t.val - 1, hp⟩) (Acc.wblk m c ⟨t.val - 1, hp⟩) (k0_pay1 (F := Ideal)) p q).trans
    (congrArg (· + _) (Pay.zero_block_apply (ix2 p q))))).trans ?_
  rw [half_sum m c ⟨t.val - 1, hp⟩ p q r n lo (by show r.val = 1024 * ((t.val - 1) / 8) + p.val; omega)
      (by show n.val = 1024 * ((t.val - 1) / 2 % 4) + q.val; omega) (fun k => by show k.val = 2048 * ((t.val - 1) % 2) + k.val; omega),
    half_sum m c t p q r n hi hr hn (fun k => by show 2048 + k.val = 2048 * (t.val % 2) + k.val; omega),
    product_apply (X m c) (W m c) j r n (hj0.trans hr.symm) (hj1.trans hn.symm)]
  exact two_halves_eq (X m c) (W m c) r n

/-- What a write-back point writes is its block of X · Wᵀ. -/
theorem flushed_eq (c : Dev nD) (t : Fin cfg0.N) (hf : (cfg0.win 2).flush t = true) :
    (dats m 0 c).flushed 2 t = ((cfg0.win 2).blk t).view.read (Elt Ideal) (product (X m c) (W m c)) := by
  have h1 : t.val % 2 = 1 := (flush0_2 t).mp hf
  have hp : t.val - 1 < cfg0.N := Nat.lt_of_le_of_lt (Nat.sub_le _ _) t.isLt
  obtain ⟨-, -, -, -, e4, e5⟩ := Blocks.index_facts t
  show (cfg0.win 2).cut (grid0.coords t) ((dats m 0 c).after 2 t) = _
  rw [after0_2, Acc.out_after_pair m c t h1 hp]
  refine funext fun (y : S1024x1024.Idx) => ?_
  obtain ⟨p, q, rfl⟩ : ∃ (p q : Fin 1024), y = ix2 p q := ⟨y 0, y 1, eq_ix2 y⟩
  show k0_pay2 (Acc.xblk m c t) (Acc.wblk m c t)
      (k0_pay2 (Acc.xblk m c ⟨t.val - 1, hp⟩) (Acc.wblk m c ⟨t.val - 1, hp⟩) (k0_pay1 (F := Ideal))) (ix2 p q)
    = product (X m c) (W m c) (((cfg0.win 2).blk t).view.emb (ix2 p q))
  refine block_entry m c t h1 hp p q _ ?_ ?_
  · show win0_2.index t (0 : Fin 2) * 1024 + 1 * p.val = 1024 * (t.val / 8) + p.val; omega
  · show win0_2.index t (1 : Fin 2) * 1024 + 1 * q.val = 1024 * (t.val / 2 % 4) + q.val; omega

/-- An index of the array is in point t's block iff each coordinate is in the block's range on its axis. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v10).slice (win0_2.rect t)).set ↔ _
  rw [View.set_slice_whole, Rect.mem_set_unit]
  exact Iff.rfl

/-- Every index (r, n) of the array is in the block written back after the point (r / 1024, n / 1024, 1). -/
theorem covered (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 64 := N_0
  obtain ⟨t, ht⟩ : ∃ t : Fin cfg0.N, t.val = ((i 0).val / 1024 * 4 + (i 1).val / 1024) * 2 + 1 :=
    ⟨⟨((i 0).val / 1024 * 4 + (i 1).val / 1024) * 2 + 1, by omega⟩, rfl⟩
  obtain ⟨-, -, -, -, e4, e5⟩ := Blocks.index_facts t
  refine ⟨t, (flush0_2 t).mpr (by omega), ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- So the region leaves X · Wᵀ in its output array. -/
theorem final (c : Dev nD) : (dats m 0 c).arrAt 2 cfg0.N = product (X m c) (W m c) :=
  (dats m 0 c).arrAt_eq_of_cover 2 (product (X m c) (W m c)) (flushed_eq m c) covered

/-- The program's result: the linear layer of the input with the gathered weights. -/
abbrev result (c : Dev nD) : S4x2048x4096.Idx → EReal :=
  linear (m ((c : Thread nD τ).loc main_arg0)) (Blocks.weights (F := Ideal) (m ((c : Thread nD τ).loc main_arg1)) (m ((c : Thread nD τ).loc main_arg2)))

/-- The region's output array, in terms of the program's arguments: the reshaped input times the gathered weights,
    transposed. -/
theorem region_result (c : Dev nD) :
    Pipeline.withArrays spec0 c (V0 m c) (fun w => (dats m 0 c).arrAt w cfg0.N) (Proc.devRef .tc main_v10)
      = product (shapeCast S8192x4096 (m ((c : Thread nD τ).loc main_arg0)) shapeCasts_S4x2048x4096_S8192x4096)
          (Blocks.weights (F := Ideal) (m ((c : Thread nD τ).loc main_arg1)) (m ((c : Thread nD τ).loc main_arg2))) :=
  ((Pipeline.withArrays_arr spec0 launch0.win.arr_inj c _ _ 2).trans (final m c)).trans
    (congrArg₂ product (Blocks.x_array m c) (Blocks.w_array m c))

/-- The reshape after the region reads the output array, and unflattens it. -/
theorem tail_eq (c : Dev nD) :
    Pipeline.afterTail₀ cfgs (dats m) 0 (V0 m) [hostOps1] c main_v11 = result m c := by
  unfold Pipeline.afterTail₀
  show StableHlo.after hostOps1 _ (Proc.devRef .tc main_v11) = _
  after_results
  refine Eq.trans ?_ (unflatten_product (m ((c : Thread nD τ).loc main_arg0))
    (Blocks.weights (F := Ideal) (m ((c : Thread nD τ).loc main_arg1)) (m ((c : Thread nD τ).loc main_arg2)))
    shapeCasts_S4x2048x4096_S8192x4096 shapeCasts_S8192x4096_S4x2048x4096)
  rw [← region_result m c]
  rfl

/-- The run, read: the result at the linear layer of the arguments, the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference's result, on the extended reals, is the linear layer of its input with its gathered weight matrix:
  its one contraction reads the input at (b, s, i) and the weights at (o, i), for i over the 4096 input features.
-/
import proofs.«169763_j24163486007516_2_alg».proof.Proof.Gen.ReferenceIdeal.Read
import proofs.«169763_j24163486007516_2_alg».proof.Proof.Product

noncomputable section

open Idealize.ShloMosaic Idealize.ShloMosaic.ValueIdx

namespace Cert.ReferenceIdeal.RefValue

open Cert.ReferenceIdeal Cert.ReferenceIdeal.Read Cert.MatProduct

theorem result_eq (x0 : (⟨S4x2048x4096, .f32⟩ : BufTy).Contents (Elt Ideal)) (x1 : (⟨S256x1, .f32⟩ : BufTy).Contents (Elt Ideal))
    (x2 : (⟨S4096x4096, .i32⟩ : BufTy).Contents (Elt Ideal)) :
    val_main_v8 (F := Ideal) x0 x1 x2 = linear x0 (val_main_v7 (F := Ideal) x1 x2) := by
  funext i
  rw [val_main_v8_apply]
  unfold linear
  refine Finset.sum_congr rfl fun k _ => ?_
  have el : lidx_main_v8 i k = ix3 ⟨(i 0).val, (i 0).isLt⟩ ⟨(i 1).val, (i 1).isLt⟩ k := funext fun a => Fin.ext (by
    match a with
    | ⟨0, _⟩ => rfl
    | ⟨1, _⟩ => rfl
    | ⟨2, _⟩ => rfl)
  have er : ridx_main_v8 i k = ix2 ⟨(i 2).val, (i 2).isLt⟩ k := funext fun a => Fin.ext (by
    match a with
    | ⟨0, _⟩ => rfl
    | ⟨1, _⟩ => rfl)
  rw [el, er]
  rfl

end Cert.ReferenceIdeal.RefValue

end
-- ==== Proof.lean ====
/-
  A quantized linear layer: the weight matrix W [4096, 4096] is gathered, entry by entry, from a 256-entry centroid
  table by an index array; the result is x · Wᵀ for the input x [4, 2048, 4096].

  The kernel's program rounds the table to bf16 before the gather (on the extended reals a change of format is the
  identity, so it gathers the same matrix), flattens x to [8192, 4096], and runs a tiled product on an [8, 4, 2] grid:
  for each [1024, 1024] output block an accumulator is zeroed at k = 0, updated with the product of a [1024, 2048]
  block of x and a [1024, 2048] block of W at k = 0 and at k = 1, and copied out at k = 1; the result is unflattened.
  The reference gathers W from the table as it is and contracts x with it in one step.

  On the extended reals both results are, at (b, s, o), the sum over i < 4096 of x(b, s, i) · W(o, i): the kernel's
  (0 + first half of the sum) + second half is the whole sum because addition there is associative and commutative
  with neutral element 0, whatever the entries are — the precondition that the inputs are finite is not used. No
  operation of the kernel is rewritten for its idealized reading, so the idealized kernel is the kernel's own text
  read on the extended reals.
-/
import proofs.«169763_j24163486007516_2_alg».proof.Defs
import proofs.«169763_j24163486007516_2_alg».proof.Proof.Gen.Kernel
import proofs.«169763_j24163486007516_2_alg».proof.Proof.Gen.Kernel.Frame
import proofs.«169763_j24163486007516_2_alg».proof.Proof.Gen.KernelIdeal
import proofs.«169763_j24163486007516_2_alg».proof.Proof.Gen.KernelIdeal.Frame
import proofs.«169763_j24163486007516_2_alg».proof.Proof.Gen.ReferenceIdeal
import proofs.«169763_j24163486007516_2_alg».proof.Proof.Gen.Pre_finite_inputs
import proofs.«169763_j24163486007516_2_alg».proof.Proof.Gen.ReferenceIdeal.Run
import proofs.«169763_j24163486007516_2_alg».proof.Proof.Gen.ReferenceIdeal.Read
import proofs.«169763_j24163486007516_2_alg».proof.Proof.KernelValue
import proofs.«169763_j24163486007516_2_alg».proof.Proof.RefValue

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with its arguments unchanged. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs gather the same weight matrix: the kernel's rounding of the table to bf16 is the identity on
    the extended reals, and the index arithmetic is the same text. -/
theorem same_weights (tbl : Cert.ReferenceIdeal.S256x1.Idx → EReal) (idx : IVec Cert.ReferenceIdeal.S4096x4096 32) :
    Cert.ReferenceIdeal.Read.val_main_v7 (F := Ideal) tbl idx = Cert.KernelIdeal.Blocks.weights (F := Ideal) tbl idx := rfl

/-- Both programs end, from memories that agree on the arguments, with the linear layer of the input with the
    gathered weight matrix. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1, (hagree c).2.2]
  exact congrArg (Cert.MatProduct.linear _) (same_weights _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
